-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S256x128 : Shape := ⟨2, ![256, 128]⟩
abbrev S128 : Shape := ⟨1, ![128]⟩
abbrev S800000 : Shape := ⟨1, ![800000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S50000x256 .f32) (main_arg1 : FVec F S256x128 .f32) (main_arg2 : FVec F S128 .f32) (main_arg3 : IVec S800000 32) (main_arg4 : IVec S800000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S50000x256 : Shape := ⟨2, ![50000, 256]⟩
abbrev S256x128 : Shape := ⟨2, ![256, 128]⟩
abbrev S128 : Shape := ⟨1, ![128]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x128 : Shape := ⟨2, ![50000, 128]⟩
abbrev S5000x256 : Shape := ⟨2, ![5000, 256]⟩
abbrev S5000x1 : Shape := ⟨2, ![5000, 1]⟩
abbrev S5000x128 : Shape := ⟨2, ![5000, 128]⟩
abbrev S800000x128 : Shape := ⟨2, ![800000, 128]⟩
abbrev S1x128 : Shape := ⟨2, ![1, 128]⟩

abbrev nBuf : Space → Nat
  | .hbm => 34
  | .vmem => 12
  | .smem => 0
  | _ => 0

abbrev bufTy : (tb : Table) → Fin (tcTables nBuf tb) → BufTy
  | .hbm, ⟨0, _⟩ => ⟨S50000x256, .f32⟩
  | .hbm, ⟨1, _⟩ => ⟨S256x128, .f32⟩
  | .hbm, ⟨2, _⟩ => ⟨S128, .f32⟩
  | .hbm, ⟨3, _⟩ => ⟨S800000, .i32⟩
  | .hbm, ⟨4, _⟩ => ⟨S800000, .i32⟩
  | .hbm, ⟨5, _⟩ => ⟨S_, .f32⟩
  | .hbm, ⟨6, _⟩ => ⟨S800000, .f32⟩
  | .hbm, ⟨7, _⟩ => ⟨S_, .f32⟩
  | .hbm, ⟨8, _⟩ => ⟨S50000, .f32⟩
  | .hbm, ⟨9, _⟩ => ⟨S800000x1, .i32⟩
  | .hbm, ⟨10, _⟩ => ⟨S50000, .f32⟩
  | .hbm, ⟨11, _⟩ => ⟨S_, .f32⟩
  | .hbm, ⟨12, _⟩ => ⟨S50000, .f32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S50000x1, .f32⟩
  | .hbm, ⟨18, _⟩ => ⟨S50000x128, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x128, .f32⟩
  | .hbm, ⟨28, _⟩ => ⟨S_, .f32⟩
  | .hbm, ⟨29, _⟩ => ⟨S50000x128, .f32⟩
  | .hbm, ⟨30, _⟩ => ⟨S800000x1, .i32⟩
  | .hbm, ⟨31, _⟩ => ⟨S50000x128, .f32⟩
  | .hbm, ⟨32, _⟩ => ⟨S1x128, .f32⟩
  | .hbm, ⟨33, _⟩ => ⟨S50000x128, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_v10 : Ref sig .tc := ⟨.hbm, 20, rfl⟩
abbrev main_v11 : Ref sig .tc := ⟨.hbm, 21, rfl⟩
abbrev main_c_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S800000x1_S800000_n_0_0_1_wf : ScatterDims.WF S50000 S800000x1 S800000 [] [0] [0] 1
  dot_S5000x256_S256x128_S5000x128_1_0_0_1_n_n_wf : DotDims.WF S5000x256 S256x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v19) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v21) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x256 : Shape := ⟨2, ![50000, 256]⟩
abbrev S256x128 : Shape := ⟨2, ![256, 128]⟩
abbrev S128 : Shape := ⟨1, ![128]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x128 : Shape := ⟨2, ![50000, 128]⟩
abbrev S800000x128 : Shape := ⟨2, ![800000, 128]⟩
abbrev S1x128 : Shape := ⟨2, ![1, 128]⟩

abbrev nBuf : Space → Nat
  | .hbm => 37
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S256x128, .f32⟩
  | .hbm, ⟨2, _⟩ => ⟨S128, .f32⟩
  | .hbm, ⟨3, _⟩ => ⟨S800000, .i32⟩
  | .hbm, ⟨4, _⟩ => ⟨S800000, .i32⟩
  | .hbm, ⟨5, _⟩ => ⟨S_, .f32⟩
  | .hbm, ⟨6, _⟩ => ⟨S800000, .f32⟩
  | .hbm, ⟨7, _⟩ => ⟨S_, .f32⟩
  | .hbm, ⟨8, _⟩ => ⟨S50000, .f32⟩
  | .hbm, ⟨9, _⟩ => ⟨S800000x1, .i32⟩
  | .hbm, ⟨10, _⟩ => ⟨S50000, .f32⟩
  | .hbm, ⟨11, _⟩ => ⟨S_, .f32⟩
  | .hbm, ⟨12, _⟩ => ⟨S50000, .f32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S50000x1, .f32⟩
  | .hbm, ⟨18, _⟩ => ⟨S50000x128, .f32⟩
  | .hbm, ⟨19, _⟩ => ⟨S50000x128, .f32⟩
  | .hbm, ⟨20, _⟩ => ⟨S50000x128, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x128, .f32⟩
  | .hbm, ⟨30, _⟩ => ⟨S_, .f32⟩
  | .hbm, ⟨31, _⟩ => ⟨S50000x128, .f32⟩
  | .hbm, ⟨32, _⟩ => ⟨S800000x1, .i32⟩
  | .hbm, ⟨33, _⟩ => ⟨S50000x128, .f32⟩
  | .hbm, ⟨34, _⟩ => ⟨S1x128, .f32⟩
  | .hbm, ⟨35, _⟩ => ⟨S50000x128, .f32⟩
  | .hbm, ⟨36, _⟩ => ⟨S50000x128, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S800000x1_S800000_n_0_0_1_wf : ScatterDims.WF S50000 S800000x1 S800000 [] [0] [0] 1
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.KRun.lean ====
/-
  The kernel program's run with its result named.

  The program is four segments: host operations, the first launch, host operations, the second launch. The contents of
  every buffer at each boundary are a fold from the launch memory (`W0` … `W4` of the generated frame module). Every
  weakly fair execution terminates, and in every final state each buffer the program does not scope holds its `W4`
  contents: in particular the result buffer, and the five argument buffers, which no segment writes.
-/
import proofs.«132903_j23459111371208_1_alg».proof.Proof.Gen.KernelIdeal.Frame

set_option maxRecDepth 16384

noncomputable section

namespace Cert.KernelIdeal.NamedRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents and the arguments end as launched. -/
theorem run_named : θ_run defs (onTc (τ := τ) (main (F := F))) ⟨m, fun _ => 0, ρ⟩ (fun r => ∀ c : Dev nD,
      r.2.mem ((c.tc : Thread nD τ).loc main_v21) = W4 m ρ c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v21 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.KernelIdeal.NamedRun

end
-- ==== Proof.LibKeepdims.lean ====
/-
  Layout operations of small shapes read at an index, for row-wise reductions kept as a column and for a vector used as a
  one-row matrix; the float word of minus infinity; the host's exponential and logarithm at an index.

  A row-wise reduction of an `a × b` array (a maximum, a sum) is a vector of `a` entries; to combine it with the array again it
  is cast or broadcast to a column `a × 1` and the column is broadcast along the rows to `a × b`. Read at (p, c), each of these
  is the vector's entry `p`. A vector of `n` entries reshaped to a one-row matrix `1 × n` is the same as the vector broadcast
  along axis 1 of that shape. None of this depends on a program.
-/
import Idealize.ShloMosaic.Lib.Pipeline.Value
import Idealize.ShloMosaic.Lib.ValueIdx
import Idealize.ShloMosaic.PureOps.Ideal.Laws

noncomputable section

namespace Cert.Gcn

open Idealize.ShloMosaic Idealize.ShloMosaic.ValueIdx

/-! ## A column of row values: the keepdims cast and its broadcast along the rows -/

section Columns
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array broadcast in dimension 0 to `[a, 1]` reads, at `(i, u)`, the operand at `i`. -/
theorem broadcastInDim_a_a1_apply {a : ℕ} (hbc : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] hbc x (ix2 i u) = x (ix1 i) := by
  refine broadcastInDim_apply ![0] hbc x (ix2 i u) (ix1 i) fun ax => ?_
  match ax with
  | ⟨0, _⟩ =>
    show i.val = if a = 1 then 0 else i.val
    split
    · have := i.isLt; omega
    · rfl

/-- An `[a, 1]` array broadcast in dimensions (0, 1) to `[a, b]` reads, at `(p, c)`, the operand's one column at row `p`. -/
theorem broadcastInDim_a1_ab_apply {a b : ℕ} (hbc : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] hbc v (ix2 p c) = v (ix2 p (0 : Fin 1)) := by
  refine broadcastInDim_apply ![0, 1] hbc v (ix2 p c) (ix2 p (0 : Fin 1)) fun ax => ?_
  match ax with
  | ⟨0, _⟩ =>
    show p.val = if a = 1 then 0 else p.val
    split
    · have := p.isLt; omega
    · rfl
  | ⟨1, _⟩ => rfl

end Columns

/-! ## A vector as a one-row matrix -/

/-- A vector of `n` entries reshaped to one row is the vector broadcast along axis 1 of a one-row matrix. -/
theorem reshape_row_eq_broadcast {n : Nat} (x : (⟨1, ![n]⟩ : Shape).Idx → EReal)
    (h : (⟨1, ![n]⟩ : Shape).ShapeCasts ⟨2, ![1, n]⟩) (h' : (⟨1, ![n]⟩ : Shape).BroadcastsInDim ⟨2, ![1, n]⟩ ![1]) :
    shapeCast ⟨2, ![1, n]⟩ x h = broadcastInDim ⟨2, ![1, n]⟩ ![1] h' x := by
  funext i
  obtain ⟨a, b, rfl⟩ : ∃ (a : Fin 1) (b : Fin n), i = ix2 a b := ⟨i 0, i 1, eq_ix2 i⟩
  have e1 := shapeCast_apply x h (ix2 a b) (ix1 b) (by
    rw [Shape.rowMajor_val_two, Shape.rowMajor_val_one]
    have := a.isLt
    show b.val = a.val * n + b.val
    have : a.val = 0 := by omega
    rw [this]; omega)
  have e2 := broadcastInDim_apply ![1] h' x (ix2 a b) (ix1 b) (by
    intro d
    match d with
    | ⟨0, _⟩ =>
      show b.val = if n = 1 then 0 else b.val
      split
      · have := b.isLt; omega
      · rfl)
  exact e1.trans e2.symm

/-! ## Values on the extended reals -/

/-- The word of `−∞` at f32 is the extended reals' bottom. -/
theorem ofBits_negInf_f32 : Ideal.ofBits .f32 0xFF800000#32 = ⊥ := by simp [Ideal.ofBits, Ideal.ieee]

/-- The host's exponential of an array at an index is the exponential of the entry. -/
theorem hostExp_apply {s : Shape} (v : FVec Ideal s .f32) (i : s.Idx) : Host.exp v i = Ideal.exp (v i) := rfl

/-- The host's logarithm of an array at an index is the logarithm of the entry. -/
theorem hostLog_apply {s : Shape} (v : FVec Ideal s .f32) (i : s.Idx) : Host.log v i = Ideal.log (v i) := rfl

end Cert.Gcn

end
-- ==== Proof.Payload.lean ====
/-
  What each launch's body stores, read at one entry of its block.

  The first body multiplies a 5000 × 256 block of features with the whole 256 × 128 weight matrix (both rounded to a
  narrower float format first, which is the identity on the extended reals), accumulating from zero, and scales row `p`
  by the one entry of row `p` of a 5000 × 1 column: entry `(p, q)` is `(∑ k, x (p, k) · w (k, q)) · n (p, 0)`.
  The second body adds a 1 × 128 row to every row of a 5000 × 128 block: entry `(p, q)` is `y (p, q) + b (0, q)`.
-/
import proofs.«132903_j23459111371208_1_alg».proof.Proof.Gen.KernelIdeal.Skeleton
import proofs.«132903_j23459111371208_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BlockValue

open Cert.KernelIdeal Cert.KernelIdeal.Gen Idealize.ShloMosaic Idealize.ShloMosaic.ValueIdx

/-! ## The matrix product of a block with the weights, at an entry -/

/-- The left operand's index at output `i` and contraction index `κ`: row of `i`. -/
theorem lhs_row (i : S5000x128.Idx) (κ : dot_S5000x256_S256x128_S5000x128_1_0_0_1_n_n.contr.Idx) :
    (dot_S5000x256_S256x128_S5000x128_1_0_0_1_n_n.lhsIdx i κ 0).val = (i 0).val := by
  unfold DotDims.lhsIdx
  rw [dif_neg (show ¬(0 : Fin S5000x256.rank) ∈ dot_S5000x256_S256x128_S5000x128_1_0_0_1_n_n.lhsBatch by decide),
    dif_pos (show (0 : Fin S5000x256.rank) ∈ dot_S5000x256_S256x128_S5000x128_1_0_0_1_n_n.lhsNonContracting by decide)]
  rfl

/-- … and column `κ`. -/
theorem lhs_col (i : S5000x128.Idx) (κ : dot_S5000x256_S256x128_S5000x128_1_0_0_1_n_n.contr.Idx) :
    (dot_S5000x256_S256x128_S5000x128_1_0_0_1_n_n.lhsIdx i κ 1).val = (κ ⟨0, by decide⟩).val :=
  dot_S5000x256_S256x128_S5000x128_1_0_0_1_n_n.lhsIdx_val_of_single rfl i κ

/-- The right operand's index: row `κ`. -/
theorem rhs_row (i : S5000x128.Idx) (κ : dot_S5000x256_S256x128_S5000x128_1_0_0_1_n_n.contr.Idx) :
    (dot_S5000x256_S256x128_S5000x128_1_0_0_1_n_n.rhsIdx i κ 0).val = (κ ⟨0, by decide⟩).val :=
  dot_S5000x256_S256x128_S5000x128_1_0_0_1_n_n.rhsIdx_val_of_single rfl i κ

/-- … and the column of `i`. -/
theorem rhs_col (i : S5000x128.Idx) (κ : dot_S5000x256_S256x128_S5000x128_1_0_0_1_n_n.contr.Idx) :
    (dot_S5000x256_S256x128_S5000x128_1_0_0_1_n_n.rhsIdx i κ 1).val = (i 1).val := by
  unfold DotDims.rhsIdx
  rw [dif_neg (show ¬(1 : Fin S256x128.rank) ∈ dot_S5000x256_S256x128_S5000x128_1_0_0_1_n_n.rhsBatch by decide),
    dif_pos (show (1 : Fin S256x128.rank) ∈ dot_S5000x256_S256x128_S5000x128_1_0_0_1_n_n.rhsNonContracting by decide)]
  rfl

/-- The product accumulated from zero, at entry `(p, q)`: the sum over the 256 contracted positions. -/
theorem matmul_at {φ₁ φ₂ : FTy} (a : FVec Ideal S5000x256 φ₁) (b : FVec Ideal S256x128 φ₂) (p : Fin 5000) (q : Fin 128) :
    matmul dot_S5000x256_S256x128_S5000x128_1_0_0_1_n_n none a b (constant S5000x128 .f32 0x00000000#32) (ix2 p q)
      = ∑ k : Fin 256, a (ix2 p k) * b (ix2 k q) := by
  refine (Ideal.matmul_constant_zero_apply dot_S5000x256_S256x128_S5000x128_1_0_0_1_n_n none a b (ix2 p q)).trans ?_
  rw [← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p q)
      ((contrEquiv1 dot_S5000x256_S256x128_S5000x128_1_0_0_1_n_n 256 rfl rfl).symm k) = ix2 p k := funext fun ax => Fin.ext (by
    match ax with
    | ⟨0, _⟩ => exact lhs_row _ _
    | ⟨1, _⟩ => exact (lhs_col _ _).trans hk)
  have er : dot_S5000x256_S256x128_S5000x128_1_0_0_1_n_n.rhsIdx (ix2 p q)
      ((contrEquiv1 dot_S5000x256_S256x128_S5000x128_1_0_0_1_n_n 256 rfl rfl).symm k) = ix2 k q := funext fun ax => Fin.ext (by
    match ax with
    | ⟨0, _⟩ => exact (rhs_row _ _).trans hk
    | ⟨1, _⟩ => exact rhs_col _ _)
  rw [el, er]

/-! ## The two stored values -/

/-- The first body's stored value at `(p, q)`: the product row scaled by the row's coefficient. -/
theorem transform_payload (x0 : FVec Ideal S5000x256 .f32) (x1 : FVec Ideal S256x128 .f32) (x2 : FVec Ideal S5000x1 .f32)
    (p : Fin 5000) (q : Fin 128) :
    k0_pay1 (F := Ideal) x0 x1 x2 (ix2 p q)
      = (∑ k : Fin 256, x0 (ix2 p k) * x1 (ix2 k q)) * x2 (ix2 p (0 : Fin 1)) := by
  unfold k0_pay1
  refine (mulf_apply _ _ _).trans ?_
  refine congrArg₂ (fun s c : EReal => s * c) ?_ ?_
  · exact matmul_at (truncf .bf16 x0 bitsLt_bf16_f32) (truncf .bf16 x1 bitsLt_bf16_f32) p q
  · rw [shapeCast_self]
    exact Cert.Gcn.broadcastTo_a1_ab_apply x2 broadcasts_S5000x1_S5000x128 p q

/-- The second body's stored value at `(p, q)`: the operand's entry plus the row's entry `q`. -/
theorem bias_payload (x0 : FVec Ideal S5000x128 .f32) (x1 : FVec Ideal S1x128 .f32) (p : Fin 5000) (q : Fin 128) :
    k1_pay1 (F := Ideal) x0 x1 (ix2 p q) = x0 (ix2 p q) + x1 (ix2 (0 : Fin 1) q) := by
  unfold k1_pay1
  refine (addf_apply _ _ _).trans ?_
  refine congrArg₂ (fun s c : EReal => s + c) ?_ ?_
  · rw [shapeCast_self]
  · rw [shapeCast_self]
    exact broadcastTo_1b_ab_apply x1 broadcasts_S1x128_S5000x128 p q

end Cert.KernelIdeal.BlockValue

end
-- ==== Proof.Spec.lean ====
/-
  The two array functions the kernel's two launches compute, written index by index over the extended reals.

  The first launch forms, for every node `p` and output feature `q`, the product row of the feature matrix with the
  weight matrix, `∑ k, x (p, k) · w (k, q)`, and scales it by the node's normalisation coefficient, the single
  entry of row `p` of a one-column array. The second launch adds to every row of its operand the single row of a
  one-row array (the bias). Neither depends on how the rows are tiled into blocks.
-/
import Idealize.ShloMosaic.Lib.ValueIdx
import Idealize.ShloMosaic.PureOps.Ideal

noncomputable section

namespace Cert.GraphConv

open Idealize.ShloMosaic Idealize.ShloMosaic.ValueIdx

/-- The scaled matrix product: entry `(p, q)` is `(∑ k, x (p, k) · w (k, q)) · n (p, 0)`. -/
def scaledProd (x : FVec Ideal ⟨2, ![50000, 256]⟩ .f32) (w : FVec Ideal ⟨2, ![256, 128]⟩ .f32)
    (n : FVec Ideal ⟨2, ![50000, 1]⟩ .f32) : FVec Ideal ⟨2, ![50000, 128]⟩ .f32 :=
  fun i => (∑ k : Fin 256, x (ix2 (n0 := 50000) (n1 := 256) (i 0) k) * w (ix2 (n0 := 256) (n1 := 128) k (i 1)))
    * n (ix2 (n0 := 50000) (n1 := 1) (i 0) (0 : Fin 1))

/-- At an index given by its coordinates. -/
theorem scaledProd_ix2 (x : FVec Ideal ⟨2, ![50000, 256]⟩ .f32) (w : FVec Ideal ⟨2, ![256, 128]⟩ .f32)
    (n : FVec Ideal ⟨2, ![50000, 1]⟩ .f32) (p : Fin 50000) (q : Fin 128) :
    scaledProd x w n (ix2 p q) = (∑ k : Fin 256, x (ix2 p k) * w (ix2 k q)) * n (ix2 p (0 : Fin 1)) := rfl

/-- A row added to every row: entry `(p, q)` is `y (p, q) + b (0, q)`. -/
def addRow (y : FVec Ideal ⟨2, ![50000, 128]⟩ .f32) (b : FVec Ideal ⟨2, ![1, 128]⟩ .f32) :
    FVec Ideal ⟨2, ![50000, 128]⟩ .f32 :=
  fun i => y i + b (ix2 (n0 := 1) (n1 := 128) (0 : Fin 1) (i 1))

/-- At an index given by its coordinates. -/
theorem addRow_ix2 (y : FVec Ideal ⟨2, ![50000, 128]⟩ .f32) (b : FVec Ideal ⟨2, ![1, 128]⟩ .f32)
    (p : Fin 50000) (q : Fin 128) : addRow y b (ix2 p q) = y (ix2 p q) + b (ix2 (0 : Fin 1) q) := rfl

end Cert.GraphConv

end
-- ==== Proof.Region0.lean ====
/-
  The first launch's output array, as one function of the arrays the launch finds.

  The launch walks ten grid points. At point `t` it reads rows `5000·t … 5000·t + 4999` of the feature matrix and of
  the coefficient column, and the whole weight matrix, and writes back rows `5000·t … 5000·t + 4999` of the output:
  the scaled product of those rows. So what every point writes back is the corresponding block of ONE function of the
  whole arrays (the scaled matrix product), and since the ten row blocks tile the 50000 rows, the output array after the
  launch is that function. All of this is stated at arbitrary entry contents `V`.
-/
import proofs.«132903_j23459111371208_1_alg».proof.Proof.Gen.KernelIdeal.Frame
import proofs.«132903_j23459111371208_1_alg».proof.Proof.Payload
import proofs.«132903_j23459111371208_1_alg».proof.Proof.Spec

set_option maxRecDepth 16384

noncomputable section

namespace Cert.KernelIdeal.Transform

open Cert.KernelIdeal Cert.KernelIdeal.Gen Cert.KernelIdeal.BlockValue Cert.GraphConv
open Idealize.ShloMosaic Idealize.ShloMosaic.TcCoe Idealize.ShloMosaic.ValueIdx Idealize.SL.Sem
open Idealize.ShloMosaic.Pipeline (Dat)

/-- The zero offset of a whole-block access. -/
theorem off_zero : (![0, 0] : Fin 2 → Nat) = fun _ => 0 := funext fun a => by fin_cases a <;> rfl

/-- One entry of a block's scaled product is the entry of the whole arrays' scaled product at the array index `i`,
    once the block's row is the arrays' row `i 0` and the block's column the arrays' column `i 1`. -/
theorem point_value (A0 : FVec Ideal S50000x256 .f32) (A1 : FVec Ideal S256x128 .f32) (A2 : FVec Ideal S50000x1 .f32)
    (x0 : FVec Ideal S5000x256 .f32) (x1 : FVec Ideal S256x128 .f32) (x2 : FVec Ideal S5000x1 .f32)
    (j : S5000x128.Idx) (i : S50000x128.Idx)
    (h0 : ∀ k : Fin 256, x0 (ix2 (n0 := 5000) (n1 := 256) (j 0) k) = A0 (ix2 (n0 := 50000) (n1 := 256) (i 0) k))
    (h1 : ∀ k : Fin 256, x1 (ix2 (n0 := 256) (n1 := 128) k (j 1)) = A1 (ix2 (n0 := 256) (n1 := 128) k (i 1)))
    (h2 : x2 (ix2 (n0 := 5000) (n1 := 1) (j 0) (0 : Fin 1)) = A2 (ix2 (n0 := 50000) (n1 := 1) (i 0) (0 : Fin 1))) :
    k0_pay1 (F := Ideal) x0 x1 x2 j = scaledProd A0 A1 A2 i := by
  refine (congrArg (k0_pay1 (F := Ideal) x0 x1 x2) (eq_ix2 j)).trans ?_
  refine (transform_payload x0 x1 x2 (j 0) (j 1)).trans ?_
  show _ = (∑ k : Fin 256, A0 (ix2 (n0 := 50000) (n1 := 256) (i 0) k) * A1 (ix2 (n0 := 256) (n1 := 128) k (i 1)))
    * A2 (ix2 (n0 := 50000) (n1 := 1) (i 0) (0 : Fin 1))
  exact congrArg₂ (fun s c : EReal => s * c) (Finset.sum_congr rfl fun k _ => by rw [h0 k, h1 k]) h2

/-- The printed index maps over the ten points: the feature block, the coefficient block and the output block sit at
    the same row block and column block 0; the weight block is always block (0, 0). -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (1 : Fin 2) = 0 ∧ win0_3.index t (0 : Fin 2) ≤ 9 :=
  (by decide +kernel : ∀ t : Fin grid0.N, _)

/-- Every one of the ten row blocks is some point's output block. -/
theorem idx_onto : ∀ r : Fin 10, ∃ t : Fin cfg0.N, win0_3.index t = ![r.val, 0] :=
  (by decide +kernel : ∀ r : Fin 10, ∃ t : Fin grid0.N, win0_3.index t = ![r.val, 0])

section
variable (V : (c : Dev nD) → (b : Ref sig .tc) → Buf (Elt Ideal) ((c : Thread nD τ).loc b))

/-- What point `t` writes back is block `t` of the scaled product of the arrays the launch finds. -/
theorem flushed_eq (c : Dev nD) (t : Fin cfg0.N) :
    (dat0 V c).flushed 3 t = ((cfg0.win 3).blk t).view.read (Elt Ideal)
      (scaledProd (V c main_arg0) (V c main_arg1) (V c main_v8)) := by
  show (cfg0.win 3).cut (grid0.coords t) ((dat0 V c).after 3 t) = _
  rw [after0_3]
  unfold out0_3
  rw [View.canon_unit_zero off_zero]
  simp only [View.ld_unit_zero (S := S5000x256) off_zero, View.ld_unit_zero (S := S256x128) off_zero,
    View.ld_unit_zero (S := S5000x1) off_zero]
  obtain ⟨e0, e1, e2, e3, e4, e5, e6, e7⟩ := idx_facts t
  funext j
  refine point_value (V c main_arg0) (V c main_arg1) (V c main_v8) (iblk0 V c 0 t) (iblk0 V c 1 t) (iblk0 V c 2 t)
    j (((cfg0.win 3).blk t).view.emb j) ?_ ?_ ?_
  · intro k
    show V c main_arg0 (((cfg0.win 0).blk t).view.emb (ix2 (n0 := 5000) (n1 := 256) (j 0) k)) = _
    refine congrArg (V c main_arg0) (funext fun a => Fin.ext ?_)
    match a with
    | ⟨0, _⟩ =>
      show win0_0.index t (0 : Fin 2) * 5000 + 1 * (j 0).val = win0_3.index t (0 : Fin 2) * 5000 + 1 * (j 0).val
      omega
    | ⟨1, _⟩ =>
      show win0_0.index t (1 : Fin 2) * 256 + 1 * k.val = k.val
      omega
  · intro k
    show V c main_arg1 (((cfg0.win 1).blk t).view.emb (ix2 (n0 := 256) (n1 := 128) k (j 1))) = _
    refine congrArg (V c main_arg1) (funext fun a => Fin.ext ?_)
    match a with
    | ⟨0, _⟩ =>
      show win0_1.index t (0 : Fin 2) * 256 + 1 * k.val = k.val
      omega
    | ⟨1, _⟩ =>
      show win0_1.index t (1 : Fin 2) * 128 + 1 * (j 1).val = win0_3.index t (1 : Fin 2) * 128 + 1 * (j 1).val
      omega
  · show V c main_v8 (((cfg0.win 2).blk t).view.emb (ix2 (n0 := 5000) (n1 := 1) (j 0) (0 : Fin 1))) = _
    refine congrArg (V c main_v8) (funext fun a => Fin.ext ?_)
    match a with
    | ⟨0, _⟩ =>
      show win0_2.index t (0 : Fin 2) * 5000 + 1 * (j 0).val = win0_3.index t (0 : Fin 2) * 5000 + 1 * (j 0).val
      omega
    | ⟨1, _⟩ =>
      show win0_2.index t (1 : Fin 2) * 1 + 1 * 0 = 0
      omega

/-- An index of the output array is in point `t`'s block iff each coordinate is in the block's range on its axis. -/
theorem mem_blk (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v9).slice (win0_3.rect t)).set ↔ _
  rw [View.set_slice_whole, Rect.mem_set_unit]
  exact Iff.rfl

/-- Every index of the output array lies in the block of the point whose row block is `row / 5000`. -/
theorem cover (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := idx_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 128 ≤ (i 1).val ∧ (i 1).val < win0_3.index t (1 : Fin 2) * 128 + 128
    omega

/-- The output array after the launch is the scaled product of the arrays the launch finds. -/
theorem final (c : Dev nD) :
    (dat0 V c).arrAt 3 cfg0.N = scaledProd (V c main_arg0) (V c main_arg1) (V c main_v8) :=
  (dat0 V c).arrAt_eq_of_cover 3 _ (fun t _ => flushed_eq V c t) cover

end

end Cert.KernelIdeal.Transform

end
-- ==== Proof.Region1.lean ====
/-
  The second launch's output array, as one function of the arrays the launch finds.

  At point `t` the launch reads rows `5000·t … 5000·t + 4999` of its operand and the whole one-row array, and writes
  back the same rows of the output: each operand row plus the one row. What every point writes back is the
  corresponding block of ONE function of the whole arrays (the row added to every row), and the ten row blocks tile
  the 50000 rows, so the output array after the launch is that function. Stated at arbitrary entry contents `V`.
-/
import proofs.«132903_j23459111371208_1_alg».proof.Proof.Gen.KernelIdeal.Frame
import proofs.«132903_j23459111371208_1_alg».proof.Proof.Payload
import proofs.«132903_j23459111371208_1_alg».proof.Proof.Spec

set_option maxRecDepth 16384

noncomputable section

namespace Cert.KernelIdeal.AddBias

open Cert.KernelIdeal Cert.KernelIdeal.Gen Cert.KernelIdeal.BlockValue Cert.GraphConv
open Idealize.ShloMosaic Idealize.ShloMosaic.TcCoe Idealize.ShloMosaic.ValueIdx Idealize.SL.Sem
open Idealize.ShloMosaic.Pipeline (Dat)

/-- The zero offset of a whole-block access. -/
theorem off_zero : (![0, 0] : Fin 2 → Nat) = fun _ => 0 := funext fun a => by fin_cases a <;> rfl

/-- One entry of a block's sum is the entry of the whole arrays' sum at the array index `i`, once the block's entry is
    the operand's entry at `i` and the block's column the arrays' column `i 1`. -/
theorem point_value (A0 : FVec Ideal S50000x128 .f32) (A1 : FVec Ideal S1x128 .f32)
    (x0 : FVec Ideal S5000x128 .f32) (x1 : FVec Ideal S1x128 .f32)
    (j : S5000x128.Idx) (i : S50000x128.Idx)
    (h0 : x0 (ix2 (n0 := 5000) (n1 := 128) (j 0) (j 1)) = A0 i)
    (h1 : x1 (ix2 (n0 := 1) (n1 := 128) (0 : Fin 1) (j 1)) = A1 (ix2 (n0 := 1) (n1 := 128) (0 : Fin 1) (i 1))) :
    k1_pay1 (F := Ideal) x0 x1 j = addRow A0 A1 i := by
  refine (congrArg (k1_pay1 (F := Ideal) x0 x1) (eq_ix2 j)).trans ?_
  refine (bias_payload x0 x1 (j 0) (j 1)).trans ?_
  show _ = A0 i + A1 (ix2 (n0 := 1) (n1 := 128) (0 : Fin 1) (i 1))
  exact congrArg₂ (fun s c : EReal => s + c) h0 h1

/-- The printed index maps over the ten points: the operand block and the output block sit at the same row block and
    column block 0; the one-row array's block is always block (0, 0). -/
theorem idx_facts : ∀ t : Fin cfg1.N,
    win1_0.index t (0 : Fin 2) = win1_2.index t (0 : Fin 2) ∧ win1_0.index t (1 : Fin 2) = 0
    ∧ win1_1.index t (0 : Fin 2) = 0 ∧ win1_1.index t (1 : Fin 2) = 0
    ∧ win1_2.index t (1 : Fin 2) = 0 ∧ win1_2.index t (0 : Fin 2) ≤ 9 :=
  (by decide +kernel : ∀ t : Fin grid1.N, _)

/-- Every one of the ten row blocks is some point's output block. -/
theorem idx_onto : ∀ r : Fin 10, ∃ t : Fin cfg1.N, win1_2.index t = ![r.val, 0] :=
  (by decide +kernel : ∀ r : Fin 10, ∃ t : Fin grid1.N, win1_2.index t = ![r.val, 0])

section
variable (V : (c : Dev nD) → (b : Ref sig .tc) → Buf (Elt Ideal) ((c : Thread nD τ).loc b))

/-- What point `t` writes back is block `t` of "the row added to every row" of the arrays the launch finds. -/
theorem flushed_eq (c : Dev nD) (t : Fin cfg1.N) :
    (dat1 V c).flushed 2 t = ((cfg1.win 2).blk t).view.read (Elt Ideal)
      (addRow (V c main_v19) (V c main_v20)) := by
  show (cfg1.win 2).cut (grid1.coords t) ((dat1 V c).after 2 t) = _
  rw [after1_2]
  unfold out1_2
  rw [View.canon_unit_zero off_zero]
  simp only [View.ld_unit_zero (S := S5000x128) off_zero, View.ld_unit_zero (S := S1x128) off_zero]
  obtain ⟨e0, e1, e2, e3, e4, e5⟩ := idx_facts t
  funext j
  refine point_value (V c main_v19) (V c main_v20) (iblk1 V c 0 t) (iblk1 V c 1 t)
    j (((cfg1.win 2).blk t).view.emb j) ?_ ?_
  · show V c main_v19 (((cfg1.win 0).blk t).view.emb (ix2 (n0 := 5000) (n1 := 128) (j 0) (j 1))) = _
    refine congrArg (V c main_v19) (funext fun a => Fin.ext ?_)
    match a with
    | ⟨0, _⟩ =>
      show win1_0.index t (0 : Fin 2) * 5000 + 1 * (j 0).val = win1_2.index t (0 : Fin 2) * 5000 + 1 * (j 0).val
      omega
    | ⟨1, _⟩ =>
      show win1_0.index t (1 : Fin 2) * 128 + 1 * (j 1).val = win1_2.index t (1 : Fin 2) * 128 + 1 * (j 1).val
      omega
  · show V c main_v20 (((cfg1.win 1).blk t).view.emb (ix2 (n0 := 1) (n1 := 128) (0 : Fin 1) (j 1))) = _
    refine congrArg (V c main_v20) (funext fun a => Fin.ext ?_)
    match a with
    | ⟨0, _⟩ =>
      show win1_1.index t (0 : Fin 2) * 1 + 1 * 0 = 0
      omega
    | ⟨1, _⟩ =>
      show win1_1.index t (1 : Fin 2) * 128 + 1 * (j 1).val = win1_2.index t (1 : Fin 2) * 128 + 1 * (j 1).val
      omega

/-- An index of the output array is in point `t`'s block iff each coordinate is in the block's range on its axis. -/
theorem mem_blk (t : Fin cfg1.N) (i : S50000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v21).slice (win1_2.rect t)).set ↔ _
  rw [View.set_slice_whole, Rect.mem_set_unit]
  exact Iff.rfl

/-- Every index of the output array lies in the block of the point whose row block is `row / 5000`. -/
theorem cover (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := idx_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk]
  intro a
  match a with
  | ⟨0, _⟩ =>
    show win1_2.index t (0 : Fin 2) * 5000 ≤ (i 0).val ∧ (i 0).val < win1_2.index t (0 : Fin 2) * 5000 + 5000
    omega
  | ⟨1, _⟩ =>
    show win1_2.index t (1 : Fin 2) * 128 ≤ (i 1).val ∧ (i 1).val < win1_2.index t (1 : Fin 2) * 128 + 128
    omega

/-- The output array after the launch is the one-row array added to every row of the operand. -/
theorem final (c : Dev nD) :
    (dat1 V c).arrAt 2 cfg1.N = addRow (V c main_v19) (V c main_v20) :=
  (dat1 V c).arrAt_eq_of_cover 2 _ (fun t _ => flushed_eq V c t) cover

end

end Cert.KernelIdeal.AddBias

end
-- ==== Proof.KValue.lean ====
/-
  The kernel program's result as one term of its five arguments.

  Unwinding the boundary contents from the end: the result buffer after the second launch is its operand with the
  one-row array added to every row; that operand is the host's scatter-add (by destination node) of the rows gathered
  (by source node) from the first launch's output, and the one-row array is the bias vector reshaped; the first
  launch's output is the scaled matrix product of the features, the weights, and the coefficient column the first host
  stretch computed from the source nodes (the reciprocal of the out-degree clamped below by one). The host's
  operations on the index arrays and its gather and scatter-add are kept as two named functions, never opened: the
  reference applies the very same operations.
-/
import proofs.«132903_j23459111371208_1_alg».proof.Proof.Region0
import proofs.«132903_j23459111371208_1_alg».proof.Proof.Region1
import Idealize.ShloMosaic.Lib.StableHlo.Run

set_option maxRecDepth 16384

noncomputable section

namespace Cert.KernelIdeal.ResultValue

open Cert.KernelIdeal Cert.KernelIdeal.Gen Cert.GraphConv
open Idealize.ShloMosaic Idealize.ShloMosaic.TcCoe Idealize.ShloMosaic.ValueIdx Idealize.SL.Sem Idealize.ShloMosaic.StableHlo

/-- The coefficient column from the source nodes: `1 / max (out-degree, 1)` per node, the out-degree the scatter-add of
    ones by source node, kept as a column. -/
def normCol (x3 : (⟨S800000, .i32⟩ : BufTy).Contents (Elt Ideal)) : (⟨S50000x1, .f32⟩ : BufTy).Contents (Elt Ideal) :=
  broadcastInDim S50000x1 ![0] bcast_S50000_S50000x1_0
    (Host.divf (broadcastInDim S50000 ![] bcast_S_S50000 (constant (F := Ideal) S_ .f32 0x3F800000#32))
      (maximumf
        (Host.scatterAdd scatter_S50000_S800000x1_S800000_n_0_0_1
          (broadcastInDim S50000 ![] bcast_S_S50000 (constant (F := Ideal) S_ .f32 0x00000000#32))
          (broadcastInDim S800000x1 ![0] bcast_S800000_S800000x1_0 x3)
          (broadcastInDim S800000 ![] bcast_S_S800000 (constant (F := Ideal) S_ .f32 0x3F800000#32)))
        (broadcastInDim S50000 ![] bcast_S_S50000 (constant (F := Ideal) S_ .f32 0x3F800000#32))))

/-- The aggregation over edges: gather row `src e` of `h` for every edge `e` (a negative index wrapped by the number of
    nodes), and scatter-add the gathered rows into zeros by `dst e`. -/
def aggregate (h : (⟨S50000x128, .f32⟩ : BufTy).Contents (Elt Ideal))
    (x3 x4 : (⟨S800000, .i32⟩ : BufTy).Contents (Elt Ideal)) : (⟨S50000x128, .f32⟩ : BufTy).Contents (Elt Ideal) :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 x4)
    (Host.gather gather_S50000x128_S800000x1_S800000x128_1_0_n_n_0_1_1128 h
      (broadcastInDim S800000x1 ![0] bcast_S800000_S800000x1_0
        (select (cmpi .slt x3 (broadcastInDim S800000 ![] bcast_S_S800000 (constantI S_ 32 0#32)))
          (addi x3 (broadcastInDim S800000 ![] bcast_S_S800000 (constantI S_ 32 50000#32))) x3)))

variable (m : (ℓ : Loc nD τ sig) → Buf (Elt Ideal) ℓ) (ρ : Dev nD → PrngReg)

/-! ## What the first launch finds -/

theorem entry_arg0 (c : Dev nD) : V1 m ρ c main_arg0 = m ((c : Thread nD τ).loc main_arg0) := by
  show StableHlo.after hostOps0 (W0 m ρ c) (Proc.devRef .tc main_arg0) = _
  after_results

theorem entry_arg1 (c : Dev nD) : V1 m ρ c main_arg1 = m ((c : Thread nD τ).loc main_arg1) := by
  show StableHlo.after hostOps0 (W0 m ρ c) (Proc.devRef .tc main_arg1) = _
  after_results

theorem entry_arg2 (c : Dev nD) : V1 m ρ c main_arg2 = m ((c : Thread nD τ).loc main_arg2) := by
  show StableHlo.after hostOps0 (W0 m ρ c) (Proc.devRef .tc main_arg2) = _
  after_results

theorem entry_arg3 (c : Dev nD) : V1 m ρ c main_arg3 = m ((c : Thread nD τ).loc main_arg3) := by
  show StableHlo.after hostOps0 (W0 m ρ c) (Proc.devRef .tc main_arg3) = _
  after_results

theorem entry_arg4 (c : Dev nD) : V1 m ρ c main_arg4 = m ((c : Thread nD τ).loc main_arg4) := by
  show StableHlo.after hostOps0 (W0 m ρ c) (Proc.devRef .tc main_arg4) = _
  after_results

/-- The coefficient column the first launch finds is the one computed from the launch's source nodes. -/
theorem entry_norm (c : Dev nD) : V1 m ρ c main_v8 = normCol (m ((c : Thread nD τ).loc main_arg3)) := by
  show StableHlo.after hostOps0 (W0 m ρ c) (Proc.devRef .tc main_v8) = _
  after_results; rfl

/-! ## After the first launch -/

/-- The first launch's output array: the scaled product of the launch's features, weights and coefficient column. -/
theorem mid_h (c : Dev nD) : V2 m ρ c main_v9
    = scaledProd (m ((c : Thread nD τ).loc main_arg0)) (m ((c : Thread nD τ).loc main_arg1))
        (normCol (m ((c : Thread nD τ).loc main_arg3))) :=
  (W2_arr m ρ c 3).trans ((Transform.final (V1 m ρ) c).trans (by rw [entry_arg0, entry_arg1, entry_norm]))

theorem mid_arg2 (c : Dev nD) : V2 m ρ c main_arg2 = m ((c : Thread nD τ).loc main_arg2) :=
  (W2_of_ne m ρ c main_arg2 (by decide)).trans (entry_arg2 m ρ c)

theorem mid_arg3 (c : Dev nD) : V2 m ρ c main_arg3 = m ((c : Thread nD τ).loc main_arg3) :=
  (W2_of_ne m ρ c main_arg3 (by decide)).trans (entry_arg3 m ρ c)

theorem mid_arg4 (c : Dev nD) : V2 m ρ c main_arg4 = m ((c : Thread nD τ).loc main_arg4) :=
  (W2_of_ne m ρ c main_arg4 (by decide)).trans (entry_arg4 m ρ c)

/-! ## What the second launch finds -/

/-- Its operand: the aggregation of the first launch's output over the edges. -/
theorem entry_agg (c : Dev nD) : V3 m ρ c main_v19
    = aggregate (V2 m ρ c main_v9) (V2 m ρ c main_arg3) (V2 m ρ c main_arg4) := by
  show StableHlo.after hostOps1 (W2 m ρ c) (Proc.devRef .tc main_v19) = _
  after_results; rfl

/-- Its one-row array: the bias vector reshaped. -/
theorem entry_row (c : Dev nD) : V3 m ρ c main_v20 = shapeCast S1x128 (V2 m ρ c main_arg2) shapeCasts_S128_S1x128 := by
  show StableHlo.after hostOps1 (W2 m ρ c) (Proc.devRef .tc main_v20) = _
  after_results; rfl

/-! ## The result -/

/-- The kernel program's result from its arguments. -/
def result (x0 : (⟨S50000x256, .f32⟩ : BufTy).Contents (Elt Ideal)) (x1 : (⟨S256x128, .f32⟩ : BufTy).Contents (Elt Ideal))
    (x2 : (⟨S128, .f32⟩ : BufTy).Contents (Elt Ideal)) (x3 x4 : (⟨S800000, .i32⟩ : BufTy).Contents (Elt Ideal)) :
    (⟨S50000x128, .f32⟩ : BufTy).Contents (Elt Ideal) :=
  addRow (aggregate (scaledProd x0 x1 (normCol x3)) x3 x4) (shapeCast S1x128 x2 shapeCasts_S128_S1x128)

/-- The result buffer at the last boundary is that term of the launch memory's arguments. -/
theorem result_value (c : Dev nD) : W4 m ρ c (Proc.devRef .tc main_v21)
    = result (m ((c : Thread nD τ).loc main_arg0)) (m ((c : Thread nD τ).loc main_arg1)) (m ((c : Thread nD τ).loc main_arg2))
        (m ((c : Thread nD τ).loc main_arg3)) (m ((c : Thread nD τ).loc main_arg4)) := by
  refine (W4_arr m ρ c 2).trans ((AddBias.final (V3 m ρ) c).trans ?_)
  rw [entry_agg, entry_row, mid_h, mid_arg2, mid_arg3, mid_arg4]
  rfl

end Cert.KernelIdeal.ResultValue

end
-- ==== Proof.RefValue.lean ====
/-
  The reference's result in the same terms as the kernel's.

  The reference multiplies the whole feature matrix with the weight matrix, scales row `p` by the coefficient of node
  `p` (the coefficient column broadcast along the rows), aggregates over the edges with the host's gather and
  scatter-add, and adds the bias vector broadcast to every row. Index by index, the scaled product is the function
  `scaledProd` of the features, the weights and the coefficient column, and adding the broadcast bias is adding the
  one-row reshaping of the bias to every row (`addRow`): a vector reshaped to one row IS its broadcast along axis 1.
-/
import proofs.«132903_j23459111371208_1_alg».proof.Proof.Gen.ReferenceIdeal.Read
import proofs.«132903_j23459111371208_1_alg».proof.Proof.Spec
import proofs.«132903_j23459111371208_1_alg».proof.Proof.LibKeepdims

noncomputable section

namespace Cert.ReferenceIdeal.RefValue

open Cert.ReferenceIdeal Cert.ReferenceIdeal.Gen Cert.ReferenceIdeal.Read Cert.GraphConv
open Idealize.ShloMosaic Idealize.ShloMosaic.ValueIdx

/-- The reference's scaled product stage is `scaledProd` of the features, the weights and the coefficient column. -/
theorem scaled_eq (x0 : (⟨S50000x256, .f32⟩ : BufTy).Contents (Elt Ideal)) (x1 : (⟨S256x128, .f32⟩ : BufTy).Contents (Elt Ideal))
    (x3 : (⟨S800000, .i32⟩ : BufTy).Contents (Elt Ideal)) :
    val_main_v11 (F := Ideal) x0 x1 x3 = scaledProd x0 x1 (val_main_v8 (F := Ideal) x3) := by
  funext i
  obtain ⟨p, q, rfl⟩ : ∃ (p : Fin 50000) (q : Fin 128), i = ix2 p q := ⟨i 0, i 1, eq_ix2 i⟩
  have el : ∀ k : Fin 256, lidx_main_v9 (ix2 p q) k = ix2 p k := fun k => funext fun a => Fin.ext (by
    match a with | ⟨0, _⟩ => rfl | ⟨1, _⟩ => rfl)
  have er : ∀ k : Fin 256, ridx_main_v9 (ix2 p q) k = ix2 k q := fun k => funext fun a => Fin.ext (by
    match a with | ⟨0, _⟩ => rfl | ⟨1, _⟩ => rfl)
  have en : idx_main_v10 (ix2 p q) = ix2 p (0 : Fin 1) := funext fun a => Fin.ext (by
    match a with | ⟨0, _⟩ => rfl | ⟨1, _⟩ => rfl)
  rw [val_main_v11_apply, val_main_v9_apply, val_main_v10_apply, scaledProd_ix2, en]
  simp only [el, er]
  rfl

/-- Adding the bias broadcast to every row is adding its one-row reshaping to every row. -/
theorem bias_eq (y : (⟨S50000x128, .f32⟩ : BufTy).Contents (Elt Ideal)) (x2 : (⟨S128, .f32⟩ : BufTy).Contents (Elt Ideal))
    (h : S128.ShapeCasts S1x128) :
    addf y (val_main_v23 (F := Ideal) x2) = addRow y (shapeCast S1x128 x2 h) := by
  rw [Cert.Gcn.reshape_row_eq_broadcast x2 h bcast_S128_S1x128_1]
  funext i
  obtain ⟨p, q, rfl⟩ : ∃ (p : Fin 50000) (q : Fin 128), i = ix2 p q := ⟨i 0, i 1, eq_ix2 i⟩
  have e : idx_main_v23 (ix2 p q) = ix2 (0 : Fin 1) q := funext fun a => Fin.ext (by
    match a with | ⟨0, _⟩ => rfl | ⟨1, _⟩ => rfl)
  rw [addf_apply, val_main_v23_apply, addRow_ix2, e]
  rfl

/-- The reference's result: the aggregation over the edges of the scaled product, with the reshaped bias added to
    every row. -/
theorem ref_value (x0 : (⟨S50000x256, .f32⟩ : BufTy).Contents (Elt Ideal)) (x1 : (⟨S256x128, .f32⟩ : BufTy).Contents (Elt Ideal))
    (x2 : (⟨S128, .f32⟩ : BufTy).Contents (Elt Ideal)) (x3 x4 : (⟨S800000, .i32⟩ : BufTy).Contents (Elt Ideal))
    (h : S128.ShapeCasts S1x128) :
    val_main_v24 (F := Ideal) x0 x1 x2 x3 x4
      = addRow (Host.scatterAdd scatter_S50000x128_S800000x1_S800000x128_1_0_0_1 (val_main_v19 (F := Ideal)) (val_main_v20 (F := Ideal) x4)
          (Host.gather gather_S50000x128_S800000x1_S800000x128_1_0_n_n_0_1_1128
            (scaledProd x0 x1 (val_main_v8 (F := Ideal) x3)) (val_main_v17 (F := Ideal) x3)))
        (shapeCast S1x128 x2 h) := by
  unfold val_main_v24 val_main_v21 val_main_v18
  rw [bias_eq _ x2 h, scaled_eq]

end Cert.ReferenceIdeal.RefValue

end
-- ==== Proof.lean ====
/-
  A graph convolution with right normalisation, computed two ways, agrees over the extended reals.

  Both programs take node features `x` (50000 × 256), weights `w` (256 × 128), a bias `b` (128) and the edges' source and
  destination nodes (800000 each). Both compute, per node `p`, the coefficient `n p = 1 / max (out-degree p, 1)`; the
  transformed and scaled features `h (p, q) = (∑ k, x (p, k) · w (k, q)) · n p`; for every destination node the sum of
  `h` over the source nodes of its incoming edges; and finally add `b q` to every row.

  The kernel program computes `h` in a launch tiled into ten blocks of 5000 rows and adds the bias in a second launch
  tiled the same way, with the host's degree count, gather and scatter-add around them; the reference does everything
  with whole-array host operations. On the extended reals a change of float format is the identity and a matrix product
  is the plain sum over the contracted axis however the rows are tiled, so the two `h` are the same function, index by
  index; the operations on the index arrays, the gather and the scatter-add are the same operations applied to equal
  arguments; and a vector reshaped to one row and added to each row is the vector broadcast to every row and added. No
  law that needs finiteness is used.

  The frames of the two kernel programs are the generated ones; the reference's frame is its generated run with the result
  dropped. Nothing was rewritten in the idealization, so there is nothing to preserve.
-/
import proofs.«132903_j23459111371208_1_alg».proof.Defs
import proofs.«132903_j23459111371208_1_alg».proof.Proof.Gen.Kernel
import proofs.«132903_j23459111371208_1_alg».proof.Proof.Gen.Kernel.Skeleton
import proofs.«132903_j23459111371208_1_alg».proof.Proof.Gen.Kernel.Launch
import proofs.«132903_j23459111371208_1_alg».proof.Proof.Gen.Kernel.Points
import proofs.«132903_j23459111371208_1_alg».proof.Proof.Gen.Kernel.Frame
import proofs.«132903_j23459111371208_1_alg».proof.Proof.Gen.KernelIdeal
import proofs.«132903_j23459111371208_1_alg».proof.Proof.Gen.KernelIdeal.Skeleton
import proofs.«132903_j23459111371208_1_alg».proof.Proof.Gen.KernelIdeal.Launch
import proofs.«132903_j23459111371208_1_alg».proof.Proof.Gen.KernelIdeal.Points
import proofs.«132903_j23459111371208_1_alg».proof.Proof.Gen.KernelIdeal.Frame
import proofs.«132903_j23459111371208_1_alg».proof.Proof.Gen.ReferenceIdeal
import proofs.«132903_j23459111371208_1_alg».proof.Proof.Gen.Pre_finite_inputs
import proofs.«132903_j23459111371208_1_alg».proof.Proof.Gen.ReferenceIdeal.Run
import proofs.«132903_j23459111371208_1_alg».proof.Proof.Gen.ReferenceIdeal.Read
import proofs.«132903_j23459111371208_1_alg».proof.Proof.KRun
import proofs.«132903_j23459111371208_1_alg».proof.Proof.KValue
import proofs.«132903_j23459111371208_1_alg».proof.Proof.RefValue
import Idealize.ShloMosaic.Adequacy
import Idealize.ShloMosaic.Init

noncomputable section

namespace Cert.Proof

open Idealize.ShloMosaic Idealize.SL.Sem

/-! ## The two results are one term of the arguments -/

/-- The reference's result and the kernel program's result are the same function of the five arguments: the
    reference's scaled product and bias addition are the kernel's (`ref_value`), and the host operations around them are
    the same operations on both sides. -/
theorem results_agree (x0 : (⟨Cert.ReferenceIdeal.S50000x256, .f32⟩ : BufTy).Contents (Elt Ideal))
    (x1 : (⟨Cert.ReferenceIdeal.S256x128, .f32⟩ : BufTy).Contents (Elt Ideal))
    (x2 : (⟨Cert.ReferenceIdeal.S128, .f32⟩ : BufTy).Contents (Elt Ideal))
    (x3 x4 : (⟨Cert.ReferenceIdeal.S800000, .i32⟩ : BufTy).Contents (Elt Ideal)) :
    Cert.ReferenceIdeal.Read.val_main_v24 (F := Ideal) x0 x1 x2 x3 x4
      = Cert.KernelIdeal.ResultValue.result x0 x1 x2 x3 x4 :=
  (Cert.ReferenceIdeal.RefValue.ref_value x0 x1 x2 x3 x4 Cert.KernelIdeal.Gen.shapeCasts_S128_S1x128).trans rfl

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs terminate, the kernel program's result at `result` of its
    arguments and the reference's at its own composed term of its arguments, which is the same function. -/
theorem algebraic : Cert.algebraic_KernelIdeal_ReferenceIdeal := by
  intro m ρ m' ρ' _ hagree
  refine ⟨fun c => Cert.KernelIdeal.ResultValue.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.ResultValue.result_value m ρ c), (h c).2⟩)
      (Cert.KernelIdeal.NamedRun.run_named m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2]
    exact (Cert.ReferenceIdeal.Read.val_main_v24_eq _ _ _ _ _).trans (results_agree _ _ _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
